-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x4096 : Shape := ⟨3, ![1, 128, 4096]⟩
abbrev S11008x4096 : Shape := ⟨2, ![11008, 4096]⟩
abbrev S11008 : Shape := ⟨1, ![11008]⟩
abbrev S_ : Shape := ⟨0, ![]⟩

class Facts : Prop where
  bcast_S_S1x128x4096 : S_.BroadcastsInDim S1x128x4096 (![] : Fin 0 → Fin S1x128x4096.rank)
  reducesTo_S1x128x4096_S_d0_1_2 : S1x128x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S1x128x4096 .f32) (main_arg1 : FVec F S11008x4096 .f32) (main_arg2 : FVec F S11008 .f32) : IVec S_ 1 :=
  let main_v0 : FVec F S1x128x4096 .f32 := Host.absf main_arg0
  let main_cst : FVec F S_ .f32 := constant S_ .f32 0x7F800000#32
  let main_v1 : FVec F S1x128x4096 .f32 := broadcastInDim S1x128x4096 ![] bcast_S_S1x128x4096 main_cst
  let main_v2 : IVec S1x128x4096 1 := cmpf .olt main_v0 main_v1
  let main_c : IVec S_ 1 := constantI S_ 1 1#1
  let main_v3 : IVec S_ 1 := (fun x v => Host.reduce IntOp.andi x v reducesTo_S1x128x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S1x128x4096 : Shape := ⟨3, ![1, 128, 4096]⟩
abbrev S11008x4096 : Shape := ⟨2, ![11008, 4096]⟩
abbrev S11008 : Shape := ⟨1, ![11008]⟩
abbrev S1x128x11008 : Shape := ⟨3, ![1, 128, 11008]⟩
abbrev S256x4096 : Shape := ⟨2, ![256, 4096]⟩
abbrev S256 : Shape := ⟨1, ![256]⟩
abbrev S1x128x256 : Shape := ⟨3, ![1, 128, 256]⟩
abbrev S256x64x64 : Shape := ⟨3, ![256, 64, 64]⟩
abbrev S256x64 : Shape := ⟨2, ![256, 64]⟩
abbrev S256x1 : Shape := ⟨2, ![256, 1]⟩
abbrev S256x64x1 : Shape := ⟨3, ![256, 64, 1]⟩
abbrev S128x4096 : Shape := ⟨2, ![128, 4096]⟩
abbrev S128x256 : Shape := ⟨2, ![128, 256]⟩
abbrev S1x256 : Shape := ⟨2, ![1, 256]⟩

abbrev nBuf : Space → Nat
  | .hbm => 5
  | .vmem => 7
  | .smem => 0
  | _ => 0

abbrev bufTy : (tb : Table) → Fin (tcTables nBuf tb) → BufTy
  | .hbm, ⟨0, _⟩ => ⟨S1x128x4096, .f32⟩
  | .hbm, ⟨1, _⟩ => ⟨S11008x4096, .f32⟩
  | .hbm, ⟨2, _⟩ => ⟨S11008, .f32⟩
  | .hbm, ⟨3, _⟩ => ⟨S1x128x4096, .bf16⟩
  | .hbm, ⟨4, _⟩ => ⟨S1x128x11008, .f32⟩
  | .local _ .vmem, ⟨0, _⟩ => ⟨S1x128x4096, .bf16⟩
  | .local _ .vmem, ⟨1, _⟩ => ⟨S256x4096, .f32⟩
  | .local _ .vmem, ⟨2, _⟩ => ⟨S256x4096, .f32⟩
  | .local _ .vmem, ⟨3, _⟩ => ⟨S256, .f32⟩
  | .local _ .vmem, ⟨4, _⟩ => ⟨S256, .f32⟩
  | .local _ .vmem, ⟨5, _⟩ => ⟨S1x128x256, .f32⟩
  | .local _ .vmem, ⟨6, _⟩ => ⟨S1x128x256, .f32⟩
  | _, _ => ⟨S1x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x64x64 : S256x4096.ShapeCasts S256x64x64
  reduces_S256x64x64_S256x64 : S256x64x64.Reduces [2] S256x64
  reduces_S256x64_S256 : S256x64.Reduces [1] S256
  shapeCasts_S256_S256x1 : S256.ShapeCasts S256x1
  broadcasts_S256x1_S256x64 : S256x1.Broadcasts S256x64
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  dot_S128x4096_S256x4096_S128x256_1_1_0_0_n_n_wf : DotDims.WF S128x4096 S256x4096 S128x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S1x128x4096.size a
  hwx0_0 : ∀ i : grid0.Coords, EltTy.bits .bf16 = 32 ∨ (Rect.block (s := S1x128x4096) S1x128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S11008.size a
  hwx0_2 : ∀ i : grid0.Coords, EltTy.bits .f32 = 32 ∨ (Rect.block (s := S11008) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S1x128x11008.size a
  hwx0_3 : ∀ i : grid0.Coords, EltTy.bits .f32 = 32 ∨ (Rect.block (s := S1x128x11008) S1x128x256.size (cc0_transform_3 i) (hinb0_3 i)).WholeWords (EltTy.packing .f32)

variable [Facts₀]

def dot_S128x4096_S256x4096_S128x256_1_1_0_0_n_n : DotDims S128x4096 S256x4096 S128x256 where
  lhsContracting := [1]
  rhsContracting := [1]
  lhsNonContracting := [0]
  rhsNonContracting := [0]
  lhsBatch := []
  rhsBatch := []
  wf := dot_S128x4096_S256x4096_S128x256_1_1_0_0_n_n_wf

abbrev win0_0 : Pipeline.Window sig grid0 :=
  Pipeline.Window.ofSpec (Memref.whole main_v0) S1x128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x128x4096 : Shape := ⟨3, ![1, 128, 4096]⟩
abbrev S11008x4096 : Shape := ⟨2, ![11008, 4096]⟩
abbrev S11008 : Shape := ⟨1, ![11008]⟩
abbrev S11008x64x64 : Shape := ⟨3, ![11008, 64, 64]⟩
abbrev S_ : Shape := ⟨0, ![]⟩
abbrev S11008x64 : Shape := ⟨2, ![11008, 64]⟩
abbrev S11008x64x1 : Shape := ⟨3, ![11008, 64, 1]⟩
abbrev S11008x1 : Shape := ⟨2, ![11008, 1]⟩
abbrev S11008x1x1 : Shape := ⟨3, ![11008, 1, 1]⟩
abbrev S1x128x11008 : Shape := ⟨3, ![1, 128, 11008]⟩
abbrev S1x1x11008 : Shape := ⟨3, ![1, 1, 11008]⟩

abbrev nBuf : Space → Nat
  | .hbm => 56
  | .vmem => 0
  | .smem => 0
  | _ => 0

abbrev bufTy : (tb : Table) → Fin (tcTables nBuf tb) → BufTy
  | .hbm, ⟨0, _⟩ => ⟨S1x128x4096, .f32⟩
  | .hbm, ⟨1, _⟩ => ⟨S11008x4096, .f32⟩
  | .hbm, ⟨2, _⟩ => ⟨S11008, .f32⟩
  | .hbm, ⟨3, _⟩ => ⟨S11008x64x64, .f32⟩
  | .hbm, ⟨4, _⟩ => ⟨S11008x64x64, .f32⟩
  | .hbm, ⟨5, _⟩ => ⟨S_, .f32⟩
  | .hbm, ⟨6, _⟩ => ⟨S11008x64, .f32⟩
  | .hbm, ⟨7, _⟩ => ⟨S11008x64x1, .f32⟩
  | .hbm, ⟨8, _⟩ => ⟨S_, .f32⟩
  | .hbm, ⟨9, _⟩ => ⟨S11008x64x1, .f32⟩
  | .hbm, ⟨10, _⟩ => ⟨S11008x64x1, .f32⟩
  | .hbm, ⟨11, _⟩ => ⟨S_, .f32⟩
  | .hbm, ⟨12, _⟩ => ⟨S_, .f32⟩
  | .hbm, ⟨13, _⟩ => ⟨S11008x64x1, .f32⟩
  | .hbm, ⟨14, _⟩ => ⟨S11008x64x1, .f32⟩
  | .hbm, ⟨15, _⟩ => ⟨S_, .f32⟩
  | .hbm, ⟨16, _⟩ => ⟨S11008x1, .f32⟩
  | .hbm, ⟨17, _⟩ => ⟨S11008x1x1, .f32⟩
  | .hbm, ⟨18, _⟩ => ⟨S_, .f32⟩
  | .hbm, ⟨19, _⟩ => ⟨S11008x1x1, .f32⟩
  | .hbm, ⟨20, _⟩ => ⟨S11008x1x1, .f32⟩
  | .hbm, ⟨21, _⟩ => ⟨S_, .f32⟩
  | .hbm, ⟨22, _⟩ => ⟨S_, .f32⟩
  | .hbm, ⟨23, _⟩ => ⟨S11008x1x1, .f32⟩
  | .hbm, ⟨24, _⟩ => ⟨S11008x1x1, .f32⟩
  | .hbm, ⟨25, _⟩ => ⟨S11008x64x1, .f32⟩
  | .hbm, ⟨26, _⟩ => ⟨S11008x64x1, .f32⟩
  | .hbm, ⟨27, _⟩ => ⟨S11008x64x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S11008x64x1, .f32⟩
  | .hbm, ⟨32, _⟩ => ⟨S11008x64x1, .f32⟩
  | .hbm, ⟨33, _⟩ => ⟨S_, .f32⟩
  | .hbm, ⟨34, _⟩ => ⟨S11008x64x1, .f32⟩
  | .hbm, ⟨35, _⟩ => ⟨S11008x64x1, .f32⟩
  | .hbm, ⟨36, _⟩ => ⟨S11008x64x1, .f32⟩
  | .hbm, ⟨37, _⟩ => ⟨S11008x64x1, .f32⟩
  | .hbm, ⟨38, _⟩ => ⟨S11008x64x64, .f32⟩
  | .hbm, ⟨39, _⟩ => ⟨S11008x64x64, .f32⟩
  | .hbm, ⟨40, _⟩ => ⟨S11008x64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S11008x64x64, .f32⟩
  | .hbm, ⟨45, _⟩ => ⟨S11008x64x64, .f32⟩
  | .hbm, ⟨46, _⟩ => ⟨S_, .f32⟩
  | .hbm, ⟨47, _⟩ => ⟨S11008x64x64, .f32⟩
  | .hbm, ⟨48, _⟩ => ⟨S11008x64x64, .f32⟩
  | .hbm, ⟨49, _⟩ => ⟨S11008x64x64, .f32⟩
  | .hbm, ⟨50, _⟩ => ⟨S11008x64x64, .f32⟩
  | .hbm, ⟨51, _⟩ => ⟨S11008x4096, .f32⟩
  | .hbm, ⟨52, _⟩ => ⟨S1x128x11008, .f32⟩
  | .hbm, ⟨53, _⟩ => ⟨S1x1x11008, .f32⟩
  | .hbm, ⟨54, _⟩ => ⟨S1x128x11008, .f32⟩
  | .hbm, ⟨55, _⟩ => ⟨S1x128x11008, .f32⟩
  | _, _ => ⟨S1x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_cst_6 : Ref sig .tc := ⟨.hbm, 29, rfl⟩
abbrev main_call3_v0 : Ref sig .tc := ⟨.hbm, 30, rfl⟩
abbrev main_call3_v1 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_cst_8 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]

class Facts₀ : Prop where
  shapeCasts_S11008x4096_S11008x64x64 : S11008x4096.ShapeCasts S11008x64x64
  reducesTo_S11008x64x64_S11008x64_d2 : S11008x64x64.ReducesTo [2] S11008x64
  h_S_ : 0 < S_.numel
  bcast_S11008x64_S11008x64x1_0_1 : S11008x64.BroadcastsInDim S11008x64x1 (![0, 1] : Fin 2 → Fin S11008x64x1.rank)
  bcast_S_S11008x64x1 : S_.BroadcastsInDim S11008x64x1 (![] : Fin 0 → Fin S11008x64x1.rank)
  reducesTo_S11008x64x1_S11008x1_d1 : S11008x64x1.ReducesTo [1] S11008x1
  bcast_S11008x1_S11008x1x1_0_2 : S11008x1.BroadcastsInDim S11008x1x1 (![0, 2] : Fin 2 → Fin S11008x1x1.rank)
  bcast_S_S11008x1x1 : S_.BroadcastsInDim S11008x1x1 (![] : Fin 0 → Fin S11008x1x1.rank)
  bcast_S11008x1x1_S11008x64x1_0_1_2 : S11008x1x1.BroadcastsInDim S11008x64x1 (![0, 1, 2] : Fin 3 → Fin S11008x64x1.rank)
  bcast_S11008x64x1_S11008x64x64_0_1_2 : S11008x64x1.BroadcastsInDim S11008x64x64 (![0, 1, 2] : Fin 3 → Fin S11008x64x64.rank)
  bcast_S_S11008x64x64 : S_.BroadcastsInDim S11008x64x64 (![] : Fin 0 → Fin S11008x64x64.rank)
  shapeCasts_S11008x64x64_S11008x4096 : S11008x64x64.ShapeCasts S11008x4096
  bcast_S11008_S1x1x11008_2 : S11008.BroadcastsInDim S1x1x11008 (![2] : Fin 1 → Fin S1x1x11008.rank)
  bcast_S1x1x11008_S1x128x11008_0_1_2 : S1x1x11008.BroadcastsInDim S1x128x11008 (![0, 1, 2] : Fin 3 → Fin S1x128x11008.rank)
  dot_S1x128x4096_S11008x4096_S1x128x11008_2_1_01_0_n_n_wf : DotDims.WF S1x128x4096 S11008x4096 S1x128x11008 [2] [1] [0, 1] [0] [] []

variable [Facts₀]

def dot_S1x128x4096_S11008x4096_S1x128x11008_2_1_01_0_n_n : DotDims S1x128x4096 S11008x4096 S1x128x11008 where
  lhsContracting := [2]
  rhsContracting := [1]
  lhsNonContracting := [0, 1]
  rhsNonContracting := [0]
  lhsBatch := []
  rhsBatch := []
  wf := dot_S1x128x4096_S11008x4096_S1x128x11008_2_1_01_0_n_n_wf

class Facts : Prop extends Facts₀ where

variable [Facts]
-- ==== Proof.Consts.lean ====
/-
  The two float patterns whose VALUE the proof uses: `1.0` (the numerator of the reciprocal scale) and `15.0`
  (the upper end of the unsigned 4-bit range, needed only as a nonnegative number). Every other literal occurs
  as the same pattern on both sides and is never read.
-/
import Idealize.ShloMosaic.PureOps.Ideal

noncomputable section

namespace Cert.Dequant.Consts

open Idealize.ShloMosaic

/-- The pattern of `1.0` denotes the real one. -/
theorem ofBits_one : Ideal.ofBits .f32 0x3F800000#32 = 1 := by
  simp [Ideal.ofBits, Ideal.ieee, -EReal.coe_mul]; norm_num

/-- The pattern of `15.0` denotes the real fifteen. -/
theorem ofBits_fifteen : Ideal.ofBits .f32 0x41700000#32 = ((15 : ℝ) : EReal) := by
  simp [Ideal.ofBits, Ideal.ieee, -EReal.coe_mul]; norm_num

/-- Fifteen is not negative. -/
theorem zero_le_fifteen : (0 : EReal) ≤ Ideal.ofBits .f32 0x41700000#32 := by
  rw [ofBits_fifteen]; exact_mod_cast (by norm_num : (0 : ℝ) ≤ 15)

end Cert.Dequant.Consts

end
-- ==== Proof.Dequant.lean ====
/-
  The double-scale block quantization of ONE weight row, on the extended reals, and the law that joins its two
  spellings.

  A row of 4096 weights is cut into 64 blocks of 64 lanes. Block `b` gets a first-level scale `s1 b`: the largest
  magnitude in the block divided by 7, kept above a small positive floor. The row gets ONE second-level scale `s2`:
  the largest `s1` divided by 15, kept above the same floor. Each `s1 b` is then itself stored as an unsigned 4-bit
  count of `s2`: `cnt b = clamp₀¹⁵ (round (s1 b / s2))`, so that the scale actually used on block `b` is
  `scale b = cnt b * s2`. A weight `w` of block `b` is stored as the signed 4-bit count
  `clamp₋₈⁷ (round (w / scale b))` of that scale, and read back as that count times `scale b`.

  The second spelling never divides a weight: it multiplies by a reciprocal prepared per block,
  `w * (if 0 < cnt b then 1 / scale b else 0)`. The two agree on every extended real, with no finiteness asked:
  where `scale b = 0` both read back `(anything) * 0 = 0`; where `scale b ≠ 0` the count is not zero, hence positive
  (it is clamped below at 0), the reciprocal is taken, and `w * (1 * (scale b)⁻¹) = w * (scale b)⁻¹ = w / scale b`.
-/
import Idealize.ShloMosaic.PureOps.Ideal
import Idealize.ShloMosaic.PureOps.Ideal.Laws
import Idealize.ShloMosaic.Lib.ValueIdx
import proofs.«145987_j60773787239146_2_alg».proof.Proof.Consts

noncomputable section

namespace Cert.Dequant

open Idealize.ShloMosaic

/-- Lane `c` of block `b` of a row: position `b * 64 + c`. -/
def lane (b : Fin 64) (c : Fin 64) : Fin 4096 := ⟨b.val * 64 + c.val, by have := b.isLt; have := c.isLt; omega⟩

/-- The block a position of the row lies in. -/
def blockOf (k : Fin 4096) : Fin 64 := ⟨k.val / 64, by have := k.isLt; omega⟩

/-- The lane of a position inside its block. -/
def laneOf (k : Fin 4096) : Fin 64 := ⟨k.val % 64, Nat.mod_lt _ (by decide)⟩

theorem lane_blockOf_laneOf (k : Fin 4096) : lane (blockOf k) (laneOf k) = k :=
  Fin.ext (by show k.val / 64 * 64 + k.val % 64 = k.val; omega)

theorem blockOf_lane (b c : Fin 64) : blockOf (lane b c) = b :=
  Fin.ext (by show (b.val * 64 + c.val) / 64 = b.val; have := c.isLt; omega)

/-- Rounding to the nearest integer, ties to even, on the extended reals. -/
abbrev rnd (z : EReal) : EReal := Ideal.liftRound Ideal.roundHalfEven z

/-- The largest magnitude in block `b`: the fold of `max`, from `-∞`, of `|w|` over the block's 64 lanes. -/
def absMax (row : Fin 4096 → EReal) (b : Fin 64) : EReal :=
  (Finset.univ : Finset (Fin 64)).fold max (Ideal.ofBits .f32 0xFF800000#32)
    (fun c => max (row (lane b c)) (-(row (lane b c))))

/-- The first-level scale of block `b`: its largest magnitude over 7, floored. -/
def s1 (row : Fin 4096 → EReal) (b : Fin 64) : EReal :=
  max (Ideal.div (absMax row b) (Ideal.ofBits .f32 0x40E00000#32)) (Ideal.ofBits .f32 0x322BCC77#32)

/-- The largest first-level scale of the row. -/
def s1Max (row : Fin 4096 → EReal) : EReal :=
  (Finset.univ : Finset (Fin 64)).fold max (Ideal.ofBits .f32 0xFF800000#32) (fun b => s1 row b)

/-- The second-level scale of the row: its largest first-level scale over 15, floored. -/
def s2 (row : Fin 4096 → EReal) : EReal :=
  max (Ideal.div (s1Max row) (Ideal.ofBits .f32 0x41700000#32)) (Ideal.ofBits .f32 0x322BCC77#32)

/-- Block `b`'s first-level scale as an unsigned 4-bit count of the second-level scale. -/
def cnt (row : Fin 4096 → EReal) (b : Fin 64) : EReal :=
  min (Ideal.ofBits .f32 0x41700000#32) (max (Ideal.ofBits .f32 0x00000000#32) (rnd (Ideal.div (s1 row b) (s2 row))))

/-- The scale actually used on block `b`. -/
def scale (row : Fin 4096 → EReal) (b : Fin 64) : EReal := cnt row b * s2 row

/-- A quotient stored as a signed 4-bit count of `sc` and read back. -/
def store4 (z sc : EReal) : EReal :=
  min (Ideal.ofBits .f32 0x40E00000#32) (max (Ideal.ofBits .f32 0xC1000000#32) (rnd z)) * sc

/-- The weight at position `k` quantized and read back, dividing by its block's scale. -/
def deq (row : Fin 4096 → EReal) (k : Fin 4096) : EReal :=
  store4 (Ideal.div (row k) (scale row (blockOf k))) (scale row (blockOf k))

/-- The reciprocal prepared for block `b`: `1 / scale b` where the count is positive, else `0`. -/
def recip (row : Fin 4096 → EReal) (b : Fin 64) : EReal :=
  Scalar.select (Ideal.cmp .ogt (cnt row b) (Ideal.ofBits .f32 0x00000000#32))
    (Ideal.div (Ideal.ofBits .f32 0x3F800000#32) (scale row b)) (Ideal.ofBits .f32 0x00000000#32)

/-- The same weight quantized and read back, multiplying by the prepared reciprocal. -/
def deqMul (row : Fin 4096 → EReal) (k : Fin 4096) : EReal :=
  store4 (row k * recip row (blockOf k)) (scale row (blockOf k))

/-- The count is clamped below at zero. -/
theorem cnt_nonneg (row : Fin 4096 → EReal) (b : Fin 64) : 0 ≤ cnt row b := by
  unfold cnt
  rw [Ideal.ofBits_zero_f32]
  exact le_min Consts.zero_le_fifteen (le_max_left _ _)

/-- THE LAW: multiplying by the prepared reciprocal and dividing by the scale store the same value. -/
theorem deqMul_eq_deq (row : Fin 4096 → EReal) (k : Fin 4096) : deqMul row k = deq row k := by
  unfold deqMul deq store4
  by_cases hr : scale row (blockOf k) = 0
  · rw [hr, mul_zero, mul_zero]
  · have hc0 : cnt row (blockOf k) ≠ 0 := fun h => hr (by unfold scale; rw [h, zero_mul])
    have hpos : 0 < cnt row (blockOf k) := lt_of_le_of_ne (cnt_nonneg row _) (Ne.symm hc0)
    have hsel : recip row (blockOf k) = (scale row (blockOf k))⁻¹ := by
      unfold recip
      rw [Ideal.ofBits_zero_f32, Consts.ofBits_one]
      have : Ideal.cmp .ogt (cnt row (blockOf k)) 0 = 1#1 := by
        show BitVec.ofBool (decide (0 < cnt row (blockOf k))) = 1#1
        rw [decide_eq_true hpos]; rfl
      rw [this, ValueIdx.select_one]
      unfold Ideal.div
      rw [if_neg hr, one_mul]
    rw [hsel]
    unfold Ideal.div
    rw [if_neg hr]

/-- The whole computation at one output position: row `xs` of the activations against the stored weight row, plus the
    bias of that output channel. -/
def outAt (xs : Fin 4096 → EReal) (row : Fin 4096 → EReal) (bias : EReal) : EReal :=
  (∑ k : Fin 4096, xs k * deq row k) + bias

end Cert.Dequant

end
-- ==== Proof.BlockLayout.lean ====
/-
  A tile of 256 weight rows of 4096 lanes, seen block-wise.

  The abs-max needs each row as 64 blocks of 64 lanes: entry `(p, b, c)` of that view is lane `b * 64 + c` of row `p`
  (both sit at the same row-major position). A value computed once per block — a scale, a reciprocal — is given back to
  every lane of its block by adding a unit axis, broadcasting along it and flattening: at lane `k` of row `p` that
  reads the value of block `k / 64`.
-/
import Idealize.ShloMosaic.Lib.Pipeline.Value
import Idealize.ShloMosaic.Lib.ValueIdx
import Idealize.ShloMosaic.Lib.ValueLayout
import proofs.«145987_j60773787239146_2_alg».proof.Proof.Dequant

noncomputable section

namespace Cert.Dequant.Layout

open Idealize.ShloMosaic Idealize.ShloMosaic.ValueIdx Cert.Dequant

variable {α : Type}

/-- The block-wise view of a tile: entry `(p, b, c)` is lane `b * 64 + c` of row `p`. -/
theorem blockView_apply (x : (⟨2, ![256, 4096]⟩ : Shape).Idx → α)
    (h : (⟨2, ![256, 4096]⟩ : Shape).ShapeCasts ⟨3, ![256, 64, 64]⟩) (p : Fin 256) (b c : Fin 64) :
    shapeCast ⟨3, ![256, 64, 64]⟩ x h (ix3 p b c) = x (ix2 p (lane b c)) :=
  shapeCast_apply x h _ _ (by
    rw [Shape.rowMajor_val_two, Shape.rowMajor_val_three]
    show p.val * 4096 + (b.val * 64 + c.val) = (p.val * 64 + b.val) * 64 + c.val
    omega)

/-- A per-block value spread over the lanes of its block: at lane `k` of row `p`, the value of block `k / 64`. -/
theorem spread_apply (x : (⟨2, ![256, 64]⟩ : Shape).Idx → α)
    (h1 : (⟨2, ![256, 64]⟩ : Shape).ShapeCasts ⟨3, ![256, 64, 1]⟩)
    (h2 : (⟨3, ![256, 64, 1]⟩ : Shape).ShapeCasts ⟨3, ![256, 64, 1]⟩)
    (h3 : (⟨3, ![256, 64, 1]⟩ : Shape).Broadcasts ⟨3, ![256, 64, 64]⟩)
    (h4 : (⟨3, ![256, 64, 64]⟩ : Shape).ShapeCasts ⟨2, ![256, 4096]⟩) (p : Fin 256) (k : Fin 4096) :
    shapeCast ⟨2, ![256, 4096]⟩
        (broadcastTo ⟨3, ![256, 64, 64]⟩ (shapeCast ⟨3, ![256, 64, 1]⟩ (shapeCast ⟨3, ![256, 64, 1]⟩ x h1) h2) h3) h4 (ix2 p k)
      = x (ix2 p (blockOf k)) := by
  rw [shapeCast_self]
  refine (shapeCast_apply _ h4 (ix2 p k) (ix3 p (blockOf k) (laneOf k)) ?_).trans ?_
  · rw [Shape.rowMajor_val_three, Shape.rowMajor_val_two]
    show (p.val * 64 + k.val / 64) * 64 + k.val % 64 = p.val * 4096 + k.val
    omega
  refine (broadcastTo_apply _ h3 (ix3 p (blockOf k) (laneOf k)) (ix3 p (blockOf k) (0 : Fin 1)) fun ax => ?_).trans ?_
  · match ax with
    | ⟨0, _⟩ =>
      show p.val = if (256 : ℕ) = 1 then 0 else p.val
      rw [if_neg (by decide)]
    | ⟨1, _⟩ =>
      show k.val / 64 = if (64 : ℕ) = 1 then 0 else k.val / 64
      rw [if_neg (by decide)]
    | ⟨2, _⟩ =>
      show (0 : ℕ) = if (1 : ℕ) = 1 then 0 else k.val % 64
      rw [if_pos rfl]
  · exact shapeCast_apply x h1 _ _ (by
      rw [Shape.rowMajor_val_two, Shape.rowMajor_val_three]
      show p.val * 64 + k.val / 64 = (p.val * 64 + k.val / 64) * 1 + 0
      omega)

end Cert.Dequant.Layout

end
-- ==== Proof.LibLastLaneMax.lean ====
/-
  A kernel's maximum over the LAST axis of an `[a, b, c]` vector, read at an index written by its coordinates.

  A block-wise abs-max views a row of `b * c` lanes as `b` blocks of `c` lanes and takes, for each `(p, q)`, the
  maximum of the `c` entries `(p, q, r)`. At the ideal values the lane reduction is the fold of `max`, from the
  accumulator's value, over `r : Fin c` of those entries: no order of evaluation is left in it. Nothing here mentions
  a program.
-/
import Idealize.ShloMosaic.PureOps.Ideal.Laws
import Idealize.ShloMosaic.Lib.Pipeline.Value
import Idealize.ShloMosaic.Lib.ValueIdx

namespace Cert.LastLaneMax

open Idealize.ShloMosaic Idealize.ShloMosaic.ValueIdx

variable {φ : FTy}

/-- The maximum over the last axis of an `[a, b, c]` vector, at `(p, q)`: the fold of `max`, from the accumulator's
    value, over `r : Fin c` of the entries `(p, q, r)`. -/
theorem lastLaneMax_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (p : Fin a) (q : Fin b) :
    multiReduction .maximumf [2] ⟨2, ![a, b]⟩ src acc h hφ hacc (ix2 p q)
      = (Finset.univ : Finset (Fin c)).fold max (Ideal.ofBits φ acc) (fun r => src (ix3 p q r)) := by
  refine (Ideal.multiReduction_maximumf_single src acc h hφ hacc (ix2 p q)).trans ?_
  show (Finset.univ : Finset (Fin c)).fold max (Ideal.ofBits φ acc) (fun r => src (h.lift (ix2 p q) r)) = _
  refine congrArg (fun f => (Finset.univ : Finset (Fin c)).fold max (Ideal.ofBits φ acc) f) (funext fun r => ?_)
  exact congrArg src (funext fun ax => Fin.ext (by match ax with | ⟨0, _⟩ => rfl | ⟨1, _⟩ => rfl | ⟨2, _⟩ => rfl))

end Cert.LastLaneMax
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.KernelTile.lean ====
/-
  The tile of 256 weight rows that one grid point quantizes and reads back, entry by entry.

  The body's arithmetic on the tile is restated as named stages — the block abs-max, the two scales, the 4-bit count,
  the scale used and the prepared reciprocal, each a `[256, 64]` vector (one value per block of a row) — and the tile
  itself. Each stage, read at row `p` and block `b`, is the row-wise specification of `Dequant.lean` applied to row `p`
  of the loaded tile: every stage of a row looks only at that row. The tile at `(p, k)` is therefore `deqMul` of row
  `p` at lane `k`, and by the law of that module `deq` of it.
-/
import proofs.«145987_j60773787239146_2_alg».proof.Proof.Gen.KernelIdeal.Skeleton
import proofs.«145987_j60773787239146_2_alg».proof.Proof.Dequant
import proofs.«145987_j60773787239146_2_alg».proof.Proof.BlockLayout
import proofs.«145987_j60773787239146_2_alg».proof.Proof.LibLastLaneMax
import proofs.«145987_j60773787239146_2_alg».proof.Proof.LibRowOps
import proofs.«145987_j60773787239146_2_alg».proof.Proof.LibKeepdims
import Idealize.ShloMosaic.PureOps.Ideal.Laws
import Idealize.ShloMosaic.Lib.ValueIdx

noncomputable section

namespace Cert.KernelIdeal.Tile

open Cert.KernelIdeal Cert.KernelIdeal.Gen Idealize.ShloMosaic Idealize.ShloMosaic.ValueIdx Cert.Dequant

/-- Row `p` of a loaded tile. -/
abbrev rowOf (v0 : Vec Ideal S256x4096 .f32) (p : Fin 256) : Fin 4096 → EReal := fun k => v0 (ix2 p k)

/-- The largest magnitude of each block of each row. -/
def absMaxV (v0 : Vec Ideal S256x4096 .f32) : FVec Ideal S256x64 .f32 :=
  multiReduction .maximumf [2] S256x64 (absf (shapeCast S256x64x64 v0 shapeCasts_S256x4096_S256x64x64)) 0xFF800000#32
    reduces_S256x64x64_S256x64 (.inl rfl) rfl

/-- The first-level scales. -/
def s1V (v0 : Vec Ideal S256x4096 .f32) : FVec Ideal S256x64 .f32 :=
  maximumf (divf (absMaxV v0) (broadcast S256x64 (Scalar.ofBits .f32 0x40E00000#32)))
    (broadcast S256x64 (Scalar.ofBits .f32 0x322BCC77#32))

/-- The second-level scale of each row, as a column. -/
def s2V (v0 : Vec Ideal S256x4096 .f32) : FVec Ideal S256x1 .f32 :=
  maximumf (divf (shapeCast S256x1 (multiReduction .maximumf [1] S256 (s1V v0) 0xFF800000#32 reduces_S256x64_S256 (.inl rfl) rfl)
      shapeCasts_S256_S256x1) (broadcast S256x1 (Scalar.ofBits .f32 0x41700000#32)))
    (broadcast S256x1 (Scalar.ofBits .f32 0x322BCC77#32))

/-- The 4-bit counts of the first-level scales. -/
def cntV (v0 : Vec Ideal S256x4096 .f32) : FVec Ideal S256x64 .f32 :=
  minimumf (broadcast S256x64 (Scalar.ofBits .f32 0x41700000#32))
    (maximumf (broadcast S256x64 (Scalar.ofBits .f32 0x00000000#32))
      (roundeven (divf (s1V v0) (broadcastTo S256x64 (s2V v0) broadcasts_S256x1_S256x64))))

/-- The scales used. -/
def scaleV (v0 : Vec Ideal S256x4096 .f32) : FVec Ideal S256x64 .f32 :=
  mulf (cntV v0) (broadcastTo S256x64 (s2V v0) broadcasts_S256x1_S256x64)

/-- The prepared reciprocals. -/
def recipV (v0 : Vec Ideal S256x4096 .f32) : FVec Ideal S256x64 .f32 :=
  select (cmpf .ogt (cntV v0) (broadcast S256x64 (Scalar.ofBits .f32 0x00000000#32)))
    (divf (broadcast S256x64 (Scalar.ofBits .f32 0x3F800000#32)) (scaleV v0))
    (broadcast S256x64 (Scalar.ofBits .f32 0x00000000#32))

/-- A per-block vector given back to every lane of its block. -/
def spreadV (x : FVec Ideal S256x64 .f32) : FVec Ideal S256x4096 .f32 :=
  shapeCast S256x4096 (broadcastTo S256x64x64 (shapeCast S256x64x1 (shapeCast S256x64x1 x shapeCasts_S256x64_S256x64x1)
    shapeCasts_S256x64x1_S256x64x1) broadcasts_S256x64x1_S256x64x64) shapeCasts_S256x64x64_S256x4096

/-- The body's tile is these stages put together. -/
theorem pay2_eq (v0 : Vec Ideal S256x4096 .f32) :
    k0_pay2 (F := Ideal) v0
      = mulf (minimumf (broadcast S256x4096 (Scalar.ofBits .f32 0x40E00000#32))
          (maximumf (broadcast S256x4096 (Scalar.ofBits .f32 0xC1000000#32)) (roundeven (mulf v0 (spreadV (recipV v0))))))
        (spreadV (scaleV v0)) := rfl

theorem absMaxV_apply (v0 : Vec Ideal S256x4096 .f32) (p : Fin 256) (b : Fin 64) :
    absMaxV v0 (ix2 p b) = absMax (rowOf v0 p) b := by
  unfold absMaxV absMax
  refine (Cert.LastLaneMax.lastLaneMax_apply _ _ _ _ _ p b).trans ?_
  refine congrArg (fun f => (Finset.univ : Finset (Fin 64)).fold max (Ideal.ofBits .f32 0xFF800000#32) f) (funext fun c => ?_)
  show max (shapeCast S256x64x64 v0 shapeCasts_S256x4096_S256x64x64 (ix3 p b c))
      (-(shapeCast S256x64x64 v0 shapeCasts_S256x4096_S256x64x64 (ix3 p b c))) = _
  rw [Layout.blockView_apply]

theorem s1V_apply (v0 : Vec Ideal S256x4096 .f32) (p : Fin 256) (b : Fin 64) :
    s1V v0 (ix2 p b) = s1 (rowOf v0 p) b := by
  show max (Ideal.div (absMaxV v0 (ix2 p b)) (Ideal.ofBits .f32 0x40E00000#32)) (Ideal.ofBits .f32 0x322BCC77#32) = _
  rw [absMaxV_apply]
  rfl

theorem s2V_apply (v0 : Vec Ideal S256x4096 .f32) (p : Fin 256) :
    s2V v0 (ix2 p (0 : Fin 1)) = s2 (rowOf v0 p) := by
  have h8 : multiReduction .maximumf [1] S256 (s1V v0) 0xFF800000#32 reduces_S256x64_S256 (.inl rfl) rfl (ix1 p)
      = s1Max (rowOf v0 p) := by
    refine (Cert.RowOps.laneMax_apply (s1V v0) _ _ _ _ p).trans ?_
    unfold s1Max
    exact congrArg (fun f => (Finset.univ : Finset (Fin 64)).fold max (Ideal.ofBits .f32 0xFF800000#32) f)
      (funext fun b => s1V_apply v0 p b)
  show max (Ideal.div (shapeCast S256x1 (multiReduction .maximumf [1] S256 (s1V v0) 0xFF800000#32 reduces_S256x64_S256 (.inl rfl) rfl)
      shapeCasts_S256_S256x1 (ix2 p (0 : Fin 1))) (Ideal.ofBits .f32 0x41700000#32)) (Ideal.ofBits .f32 0x322BCC77#32) = _
  rw [Cert.Keepdims.shapeCast_a_a1_apply, h8]
  rfl

theorem s2B_apply (v0 : Vec Ideal S256x4096 .f32) (p : Fin 256) (b : Fin 64) :
    broadcastTo S256x64 (s2V v0) broadcasts_S256x1_S256x64 (ix2 p b) = s2 (rowOf v0 p) := by
  rw [Cert.Keepdims.broadcastTo_a1_ab_apply, s2V_apply]

theorem cntV_apply (v0 : Vec Ideal S256x4096 .f32) (p : Fin 256) (b : Fin 64) :
    cntV v0 (ix2 p b) = cnt (rowOf v0 p) b := by
  show min (Ideal.ofBits .f32 0x41700000#32) (max (Ideal.ofBits .f32 0x00000000#32)
      (rnd (Ideal.div (s1V v0 (ix2 p b)) (broadcastTo S256x64 (s2V v0) broadcasts_S256x1_S256x64 (ix2 p b))))) = _
  rw [s1V_apply, s2B_apply]
  rfl

theorem scaleV_apply (v0 : Vec Ideal S256x4096 .f32) (p : Fin 256) (b : Fin 64) :
    scaleV v0 (ix2 p b) = scale (rowOf v0 p) b := by
  show cntV v0 (ix2 p b) * broadcastTo S256x64 (s2V v0) broadcasts_S256x1_S256x64 (ix2 p b) = _
  rw [cntV_apply, s2B_apply]
  rfl

theorem recipV_apply (v0 : Vec Ideal S256x4096 .f32) (p : Fin 256) (b : Fin 64) :
    recipV v0 (ix2 p b) = recip (rowOf v0 p) b := by
  show Scalar.select (Ideal.cmp .ogt (cntV v0 (ix2 p b)) (Ideal.ofBits .f32 0x00000000#32))
      (Ideal.div (Ideal.ofBits .f32 0x3F800000#32) (scaleV v0 (ix2 p b))) (Ideal.ofBits .f32 0x00000000#32) = _
  rw [cntV_apply, scaleV_apply]
  rfl

theorem spreadV_apply (x : FVec Ideal S256x64 .f32) (p : Fin 256) (k : Fin 4096) :
    spreadV x (ix2 p k) = x (ix2 p (blockOf k)) :=
  Layout.spread_apply x _ _ _ _ p k

/-- The tile at row `p`, lane `k`: the weight stored through the prepared reciprocal and read back. -/
theorem tile_apply (v0 : Vec Ideal S256x4096 .f32) (p : Fin 256) (k : Fin 4096) :
    k0_pay2 (F := Ideal) v0 (ix2 p k) = deqMul (rowOf v0 p) k := by
  rw [pay2_eq]
  show min (Ideal.ofBits .f32 0x40E00000#32) (max (Ideal.ofBits .f32 0xC1000000#32)
      (rnd (v0 (ix2 p k) * spreadV (recipV v0) (ix2 p k)))) * spreadV (scaleV v0) (ix2 p k) = _
  rw [spreadV_apply, spreadV_apply, recipV_apply, scaleV_apply]
  rfl

/-- The tile at row `p`, lane `k`, in the dividing spelling. -/
theorem tile_eq_deq (v0 : Vec Ideal S256x4096 .f32) (p : Fin 256) (k : Fin 4096) :
    k0_pay2 (F := Ideal) v0 (ix2 p k) = deq (rowOf v0 p) k :=
  (tile_apply v0 p k).trans (deqMul_eq_deq _ k)

end Cert.KernelIdeal.Tile

end
-- ==== Proof.KernelOut.lean ====
/-
  What one grid point stores: for each of the 128 activation rows `s` and each of the tile's 256 output channels `j`,
  the contraction over the 4096 input lanes of activation row `s` against tile row `j`, plus channel `j`'s bias.

  The matrix product contracts axis 1 of both operands (the tile is used untransposed: `x · tileᵀ`) into a zero
  accumulator, so on the extended reals it is the plain sum over `k` of `x (s, k) * tile (j, k)`; the change of float
  format applied to the tile before the product is the identity there. The leading unit axis of the activations and of
  the stored block only relabels indices.
-/
import proofs.«145987_j60773787239146_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Out

open Cert.KernelIdeal Cert.KernelIdeal.Gen Idealize.ShloMosaic Idealize.ShloMosaic.ValueIdx

/-- The left operand's row coordinate is the output's row. -/
theorem lhs_row (i : S128x256.Idx) (q : dot_S128x4096_S256x4096_S128x256_1_1_0_0_n_n.contr.Idx) :
    (dot_S128x4096_S256x4096_S128x256_1_1_0_0_n_n.lhsIdx i q 0).val = (i 0).val := by
  unfold DotDims.lhsIdx
  rw [dif_neg (show ¬(0 : Fin S128x4096.rank) ∈ dot_S128x4096_S256x4096_S128x256_1_1_0_0_n_n.lhsBatch by decide),
    dif_pos (show (0 : Fin S128x4096.rank) ∈ dot_S128x4096_S256x4096_S128x256_1_1_0_0_n_n.lhsNonContracting by decide)]
  rfl

/-- The left operand's lane coordinate is the contracted one. -/
theorem lhs_lane (i : S128x256.Idx) (q : dot_S128x4096_S256x4096_S128x256_1_1_0_0_n_n.contr.Idx) :
    (dot_S128x4096_S256x4096_S128x256_1_1_0_0_n_n.lhsIdx i q 1).val = (q ⟨0, by decide⟩).val :=
  dot_S128x4096_S256x4096_S128x256_1_1_0_0_n_n.lhsIdx_val_of_single rfl i q

/-- The right operand's row coordinate is the output's column. -/
theorem rhs_row (i : S128x256.Idx) (q : dot_S128x4096_S256x4096_S128x256_1_1_0_0_n_n.contr.Idx) :
    (dot_S128x4096_S256x4096_S128x256_1_1_0_0_n_n.rhsIdx i q 0).val = (i 1).val := by
  unfold DotDims.rhsIdx
  rw [dif_neg (show ¬(0 : Fin S256x4096.rank) ∈ dot_S128x4096_S256x4096_S128x256_1_1_0_0_n_n.rhsBatch by decide),
    dif_pos (show (0 : Fin S256x4096.rank) ∈ dot_S128x4096_S256x4096_S128x256_1_1_0_0_n_n.rhsNonContracting by decide)]
  rfl

/-- The right operand's lane coordinate is the contracted one. -/
theorem rhs_lane (i : S128x256.Idx) (q : dot_S128x4096_S256x4096_S128x256_1_1_0_0_n_n.contr.Idx) :
    (dot_S128x4096_S256x4096_S128x256_1_1_0_0_n_n.rhsIdx i q 1).val = (q ⟨0, by decide⟩).val :=
  dot_S128x4096_S256x4096_S128x256_1_1_0_0_n_n.rhsIdx_val_of_single rfl i q

/-- The product into a zero accumulator, at `(s, j)`: the sum over the 4096 lanes of `l (s, k) * r (j, k)`. -/
theorem product_apply (l : FVec Ideal S128x4096 .bf16) (r : FVec Ideal S256x4096 .bf16) (s : Fin 128) (j : Fin 256) :
    matmul dot_S128x4096_S256x4096_S128x256_1_1_0_0_n_n none l r (constant (F := Ideal) S128x256 .f32 0x00000000#32) (ix2 s j)
      = ∑ k : Fin 4096, l (ix2 s k) * r (ix2 j k) := by
  refine (Ideal.matmul_constant_zero_apply dot_S128x4096_S256x4096_S128x256_1_1_0_0_n_n none l r (ix2 s j)).trans ?_
  rw [← Equiv.sum_comp (ValueIdx.contrEquiv1 dot_S128x4096_S256x4096_S128x256_1_1_0_0_n_n 4096 rfl rfl).symm]
  refine Finset.sum_congr rfl fun k _ => ?_
  have hk := ValueIdx.contrEquiv1_symm_val dot_S128x4096_S256x4096_S128x256_1_1_0_0_n_n 4096 rfl rfl k
  have el : dot_S128x4096_S256x4096_S128x256_1_1_0_0_n_n.lhsIdx (ix2 s j)
      ((ValueIdx.contrEquiv1 dot_S128x4096_S256x4096_S128x256_1_1_0_0_n_n 4096 rfl rfl).symm k) = ix2 s k :=
    funext fun a => Fin.ext (by
      match a with
      | ⟨0, _⟩ => exact lhs_row _ _
      | ⟨1, _⟩ => exact (lhs_lane _ _).trans hk)
  have er : dot_S128x4096_S256x4096_S128x256_1_1_0_0_n_n.rhsIdx (ix2 s j)
      ((ValueIdx.contrEquiv1 dot_S128x4096_S256x4096_S128x256_1_1_0_0_n_n 4096 rfl rfl).symm k) = ix2 j k :=
    funext fun a => Fin.ext (by
      match a with
      | ⟨0, _⟩ => exact rhs_row _ _
      | ⟨1, _⟩ => exact (rhs_lane _ _).trans hk)
  rw [el, er]

/-- The stored block as one term of the tile, the activations and the bias. -/
theorem pay1_eq (v43 : FVec Ideal S256x4096 .f32) (v45 : Vec Ideal S1x128x4096 .bf16) (v48 : Vec Ideal S256 .f32) :
    k0_pay1 (F := Ideal) v43 v45 v48
      = shapeCast S1x128x256
          (addf (matmul dot_S128x4096_S256x4096_S128x256_1_1_0_0_n_n none
              (shapeCast S128x4096 v45 shapeCasts_S1x128x4096_S128x4096 : FVec Ideal S128x4096 .bf16) (truncf .bf16 v43 bitsLt_bf16_f32)
              (constant (F := Ideal) S128x256 .f32 0x00000000#32))
            (broadcastTo S128x256 (shapeCast S1x256 v48 shapeCasts_S256_S1x256) broadcasts_S1x256_S128x256))
          shapeCasts_S128x256_S1x128x256 := rfl

/-- The stored block at `(0, s, j)`. -/
theorem pay1_apply (v43 : FVec Ideal S256x4096 .f32) (v45 : Vec Ideal S1x128x4096 .bf16) (v48 : Vec Ideal S256 .f32)
    (s : Fin 128) (j : Fin 256) :
    k0_pay1 (F := Ideal) v43 v45 v48 (ix3 (0 : Fin 1) s j)
      = (∑ k : Fin 4096, v45 (ix3 (0 : Fin 1) s k) * v43 (ix2 j k)) + v48 (ix1 j) := by
  rw [pay1_eq, shapeCast_ab_1ab_apply]
  show matmul dot_S128x4096_S256x4096_S128x256_1_1_0_0_n_n none
        (shapeCast S128x4096 v45 shapeCasts_S1x128x4096_S128x4096 : FVec Ideal S128x4096 .bf16) (truncf .bf16 v43 bitsLt_bf16_f32)
        (constant (F := Ideal) S128x256 .f32 0x00000000#32) (ix2 s j)
      + broadcastTo S128x256 (shapeCast S1x256 v48 shapeCasts_S256_S1x256) broadcasts_S1x256_S128x256 (ix2 s j) = _
  rw [product_apply, broadcastTo_1b_ab_apply, shapeCast_a_1a_apply]
  refine congrArg (· + v48 (ix1 j)) (Finset.sum_congr rfl fun k _ => ?_)
  rw [shapeCast_1ab_ab_apply]
  rfl

end Cert.KernelIdeal.Out

end
-- ==== Proof.KernelValue.lean ====
/-
  From what each grid point writes back to the whole output array.

  The grid has 43 points; point `t` holds weight rows `256 t … 256 t + 255` (all 4096 lanes of each), the matching 256
  biases, and ALL of the activations, and writes back the output columns `256 t … 256 t + 255` of every activation row.
  Entry `(0, s, j)` of the block point `t` writes is the specification at output position `(0, s, 256 t + j)`: the tile's
  row `j` is weight row `256 t + j`, and quantizing a row looks at nothing but that row. The 43 column blocks tile the
  11008 columns (column `o` lies in the block of point `o / 256`), so the array ends holding the specification
  everywhere.

  The activations reach the region through a change of float format made on the host, which is the identity on the
  extended reals.
-/
import proofs.«145987_j60773787239146_2_alg».proof.Proof.Gen.KernelIdeal.Value
import proofs.«145987_j60773787239146_2_alg».proof.Proof.Dequant
import proofs.«145987_j60773787239146_2_alg».proof.Proof.KernelTile
import proofs.«145987_j60773787239146_2_alg».proof.Proof.KernelOut
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.Dequant
open Idealize.ShloMosaic.Pipeline (Dat)

/-- The specification at activation row `s` and output channel `o`. -/
def specAt (X : S1x128x4096.Idx → EReal) (W : S11008x4096.Idx → EReal) (B : S11008.Idx → EReal)
    (s : Fin 128) (o : Fin 11008) : EReal :=
  outAt (fun k => X (ix3 (0 : Fin 1) s k)) (fun k => W (ix2 o k)) (B (ix1 o))

/-- The specification as one function of the three argument arrays, index by index. -/
def spec (X : S1x128x4096.Idx → EReal) (W : S11008x4096.Idx → EReal) (B : S11008.Idx → EReal) :
    S1x128x11008.Idx → EReal :=
  fun i => specAt X W B (i 1) (i 2)

/-- One point's stored entry `(0, s, j)`, from blocks that are rows `s` of the activations and row `o` of the weights
    and of the bias: the specification at `(s', o)`. -/
theorem point_value (x0 : Vec Ideal S1x128x4096 .bf16) (x1 : Vec Ideal S256x4096 .f32) (x2 : Vec Ideal S256 .f32)
    (X : S1x128x4096.Idx → EReal) (W : S11008x4096.Idx → EReal) (B : S11008.Idx → EReal)
    (s : Fin 128) (j : Fin 256) (s' : Fin 128) (o : Fin 11008)
    (h0 : ∀ k : Fin 4096, x0 (ix3 (0 : Fin 1) s k) = X (ix3 (0 : Fin 1) s' k))
    (h1 : ∀ k : Fin 4096, x1 (ix2 j k) = W (ix2 o k))
    (h2 : x2 (ix1 j) = B (ix1 o)) :
    k0_pay1 (F := Ideal) (k0_pay2 (F := Ideal) x1) x0 x2 (ix3 (0 : Fin 1) s j) = specAt X W B s' o := by
  rw [Out.pay1_apply]
  unfold specAt outAt
  rw [h2]
  refine congrArg (· + B (ix1 o)) (Finset.sum_congr rfl fun k _ => ?_)
  rw [h0 k, Tile.tile_eq_deq]
  have hrow : Tile.rowOf x1 j = fun k => W (ix2 o k) := funext h1
  rw [hrow]

/-- The same at an index of the stored block given whole. -/
theorem point_value_at (x0 : Vec Ideal S1x128x4096 .bf16) (x1 : Vec Ideal S256x4096 .f32) (x2 : Vec Ideal S256 .f32)
    (X : S1x128x4096.Idx → EReal) (W : S11008x4096.Idx → EReal) (B : S11008.Idx → EReal)
    (y : S1x128x256.Idx) (s' : Fin 128) (o : Fin 11008)
    (h0 : ∀ k : Fin 4096, x0 (ix3 (0 : Fin 1) (y 1) k) = X (ix3 (0 : Fin 1) s' k))
    (h1 : ∀ k : Fin 4096, x1 (ix2 (y 2) k) = W (ix2 o k))
    (h2 : x2 (ix1 (y 2)) = B (ix1 o)) :
    k0_pay1 (F := Ideal) (k0_pay2 (F := Ideal) x1) x0 x2 y = specAt X W B s' o := by
  obtain ⟨z, s, j, rfl⟩ : ∃ (z : Fin 1) (s : Fin 128) (j : Fin 256), y = ix3 z s j := ⟨y 0, y 1, y 2, eq_ix3 y⟩
  have hz : z = 0 := Subsingleton.elim _ _
  subst hz
  exact point_value x0 x1 x2 X W B s j s' o h0 h1 h2

variable (m : (ℓ : Loc nD τ sig) → Buf (Elt Ideal) ℓ) (ρ : Dev nD → PrngReg)

/-- The activations as the region finds them: the launch contents, the host's change of format being the identity. -/
theorem V_acts (c : Dev nD) :
    (V m c main_v0 : S1x128x4096.Idx → EReal) = (m ((c : Thread nD τ).loc main_arg0) : S1x128x4096.Idx → EReal) := by
  dsimp only [V, hostOps0]
  after_results
  rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 43 points: the activations' block never moves; the weights', the bias's and
    the output's move together along the output-channel axis. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 1) = t.val
    ∧ win0_3.index t (0 : Fin 3) = 0 ∧ win0_3.index t (1 : Fin 3) = 0 ∧ win0_3.index t (2 : Fin 3) = t.val :=
  (by decide +kernel : ∀ t : Fin grid0.N, _)

/-- Entry `y` of what point `t` writes back is the specification at the array index `y` sits at: on each axis an
    element of a block sits at the block's index times the block's size plus its own coordinate, so `(0, s, j)` of
    point `t`'s block is `(0, s, 256 t + j)`, and row `j` of the tile and entry `j` of the bias block are row and entry
    `256 t + j` of their arrays. -/
theorem flushed_entry (c : Dev nD) (t : Fin cfg0.N) (y : S1x128x256.Idx) :
    k0_pay1 (F := Ideal) (k0_pay2 (F := Ideal) (iblk m c 1 t)) (iblk m c 0 t) (iblk m c 2 t) y
      = spec (V m c main_v0) (V m c main_arg1) (V m c main_arg2) (((cfg0.win 3).blk t).view.emb y) := by
  obtain ⟨e00, e01, e02, e10, e11, e20, e30, e31, e32⟩ := idx_facts t
  have ht : t.val < 43 := by have h := t.isLt; have hN : cfg0.N = 43 := N_0; omega
  have hy0 : (y 0).val < 1 := (y 0).isLt
  have hy1 : (y 1).val < 128 := (y 1).isLt
  have hy2 : (y 2).val < 256 := (y 2).isLt
  have hemb : ((cfg0.win 3).blk t).view.emb y
      = ix3 (0 : Fin 1) (⟨(y 1).val, hy1⟩ : Fin 128) (⟨t.val * 256 + (y 2).val, by omega⟩ : Fin 11008) := by
    funext a; apply Fin.ext
    match a with
    | ⟨0, _⟩ => show win0_3.index t (0 : Fin 3) * 1 + 1 * (y 0).val = 0; omega
    | ⟨1, _⟩ => show win0_3.index t (1 : Fin 3) * 128 + 1 * (y 1).val = (y 1).val; omega
    | ⟨2, _⟩ => show win0_3.index t (2 : Fin 3) * 256 + 1 * (y 2).val = t.val * 256 + (y 2).val; omega
  rw [hemb]
  show _ = specAt (V m c main_v0) (V m c main_arg1) (V m c main_arg2) (⟨(y 1).val, hy1⟩ : Fin 128)
    (⟨t.val * 256 + (y 2).val, by omega⟩ : Fin 11008)
  refine point_value_at (iblk m c 0 t) (iblk m c 1 t) (iblk m c 2 t) (V m c main_v0) (V m c main_arg1) (V m c main_arg2) y
    (⟨(y 1).val, hy1⟩ : Fin 128) (⟨t.val * 256 + (y 2).val, by omega⟩ : Fin 11008) (fun k => ?_) (fun k => ?_) ?_
  · show V m c main_v0 (((cfg0.win 0).blk t).view.emb (ix3 (0 : Fin 1) (y 1) k)) = _
    refine congrArg (V m c main_v0) (funext fun a => Fin.ext ?_)
    match a with
    | ⟨0, _⟩ => show win0_0.index t (0 : Fin 3) * 1 + 1 * 0 = 0; omega
    | ⟨1, _⟩ => show win0_0.index t (1 : Fin 3) * 128 + 1 * (y 1).val = (y 1).val; omega
    | ⟨2, _⟩ => show win0_0.index t (2 : Fin 3) * 4096 + 1 * k.val = k.val; omega
  · show V m c main_arg1 (((cfg0.win 1).blk t).view.emb (ix2 (y 2) k)) = _
    refine congrArg (V m c main_arg1) (funext fun a => Fin.ext ?_)
    match a with
    | ⟨0, _⟩ => show win0_1.index t (0 : Fin 2) * 256 + 1 * (y 2).val = t.val * 256 + (y 2).val; omega
    | ⟨1, _⟩ => show win0_1.index t (1 : Fin 2) * 4096 + 1 * k.val = k.val; omega
  · show V m c main_arg2 (((cfg0.win 2).blk t).view.emb (ix1 (y 2))) = _
    refine congrArg (V m c main_arg2) (funext fun a => Fin.ext ?_)
    match a with
    | ⟨0, _⟩ => show win0_2.index t (0 : Fin 1) * 256 + 1 * (y 2).val = t.val * 256 + (y 2).val; omega

/-- WHAT POINT `t` WRITES BACK is block `t` of the specification of the arrays as the region finds them. -/
theorem flushed_eq (c : Dev nD) (t : Fin cfg0.N) :
    (dats m 0 c).flushed 3 t
      = ((cfg0.win 3).blk t).view.read (Elt Ideal) (spec (V m c main_v0) (V m c main_arg1) (V m c main_arg2)) := by
  rw [Cert.KernelIdeal.Value.flushed3]
  unfold out0_3
  rw [View.canon_unit_zero hz3]
  simp only [View.ld_unit_zero (S := S256x4096) hz2, View.ld_unit_zero (S := S1x128x4096) hz3,
    View.ld_unit_zero (S := S256) hz1]
  funext y
  exact flushed_entry m c t y

/-- An index of the output array is in point `t`'s block iff each coordinate is in the block's range on its axis. -/
theorem mem_blk (t : Fin cfg0.N) (i : S1x128x11008.Idx) :
    i ∈ ((cfg0.win 3).blk t).view.set ↔ ∀ a : Fin 3, win0_3.index t a * S1x128x256.size a ≤ (i a).val
      ∧ (i a).val < win0_3.index t a * S1x128x256.size a + S1x128x256.size a := by
  show i ∈ ((View.whole main_v1).slice (win0_3.rect t)).set ↔ _
  rw [View.set_slice_whole, Rect.mem_set_unit]
  exact Iff.rfl

/-- Every output index is in some point's block: column `o` in that of point `o / 256`. -/
theorem cover (i : S1x128x11008.Idx) :
    ∃ t : Fin cfg0.N, (cfg0.win 3).flush t = true ∧ i ∈ ((cfg0.win 3).blk t).view.set := by
  have hi0 : (i 0).val < 1 := (i 0).isLt
  have hi1 : (i 1).val < 128 := (i 1).isLt
  have hi2 : (i 2).val < 11008 := (i 2).isLt
  have hN : cfg0.N = 43 := N_0
  obtain ⟨t, ht⟩ : ∃ t : Fin cfg0.N, t.val = (i 2).val / 256 := ⟨⟨(i 2).val / 256, by omega⟩, rfl⟩
  obtain ⟨-, -, -, -, -, -, e30, e31, e32⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 128 ≤ (i 1).val ∧ (i 1).val < win0_3.index t (1 : Fin 3) * 128 + 128
    omega
  | ⟨2, _⟩ =>
    show win0_3.index t (2 : Fin 3) * 256 ≤ (i 2).val ∧ (i 2).val < win0_3.index t (2 : Fin 3) * 256 + 256
    omega

/-- THE OUTPUT ARRAY after the run: the specification of the three argument arrays as launched. -/
theorem final (c : Dev nD) :
    (dats m 0 c).arrAt 3 cfg0.N
      = spec (m ((c : Thread nD τ).loc main_arg0)) (m ((c : Thread nD τ).loc main_arg1)) (m ((c : Thread nD τ).loc main_arg2)) := by
  have h := (dats m 0 c).arrAt_eq_of_cover 3 (spec (V m c main_v0) (V m c main_arg1) (V m c main_arg2))
    (fun t _ => flushed_eq m c t) cover
  rw [h, V_acts, V_main_arg1, V_main_arg2]

/-- The kernel's run re-posted: the output array at the specification of the arguments, the arguments unchanged. -/
theorem run : θ_run defs (onTc (τ := τ) (main (F := Ideal))) ⟨m, fun _ => 0, ρ⟩ fun r => ∀ c : Dev nD,
      r.2.mem ((c : Thread nD τ).loc main_v1)
        = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Whole

end
-- ==== Proof.LibLastAxisMax.lean ====
/-
  The host's maximum over the LAST axis of an `[n, a, b]` array, read at an index written by its coordinates.

  A softmax over the last axis takes, for each `(k, p)`, the maximum of the `b` entries `(k, p, c)`. At the ideal values
  the host's reduction is the fold of `max`, from the initial value, over `c : Fin b` of those entries: no order of
  evaluation is left in it. Nothing here mentions a program.
-/
import Idealize.ShloMosaic.PureOps.Ideal.Laws
import Idealize.ShloMosaic.Lib.Pipeline.Value
import Idealize.ShloMosaic.Lib.ValueIdx

namespace Cert.LastAxisMax

open Idealize.ShloMosaic Idealize.ShloMosaic.ValueIdx

variable {φ : FTy}

/-- The host's maximum over the LAST axis of an `[n, a, b]` array, at `(k, p)`: the fold of `max`, from the initial value,
    over `c : Fin b` of the entries `(k, p, c)`. -/
theorem hostLastMax_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.maximumf (F := Ideal) (φ := φ)) x init h' hu (ix2 k p)
      = (Finset.univ : Finset (Fin b)).fold max (init (Shape.Idx.first hu)) (fun c => x (ix3 k p c)) := by
  refine (Host.reduce_eq_fold_single (FloatOps.maximumf (F := Ideal) (φ := φ)) x init h' h hu (ix2 k p)).trans ?_
  show (Finset.univ : Finset (Fin b)).fold max (init (Shape.Idx.first hu)) (fun c => x (h.lift (ix2 k p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl | ⟨2, _⟩ => rfl))

end Cert.LastAxisMax
-- ==== Proof.RefValue.lean ====
/-
  The reference computation read entry by entry.

  The reference takes each weight row of 4096 entries, cuts it into 64 blocks of 64 lanes, and quantizes it with two
  levels of scales: the largest magnitude of each block over 7 (floored) is the block's first-level scale; the largest
  first-level scale over 15 (floored) is the row's second-level scale; each first-level scale is stored as a count
  between 0 and 15 of the second-level scale; each weight is stored as a count between -8 and 7 of its block's stored
  scale and read back. The output is the contraction of the activations with the read-back weights plus the bias.

  Each lemma below reads one stage of that computation at an index written by its coordinates and identifies it with
  the per-row function of the same name; the last one reads the output entry `(0, s, o)` as the sum over the 4096
  positions of the activation times the read-back weight, plus the bias.
-/
import proofs.«145987_j60773787239146_2_alg».proof.Proof.Gen.ReferenceIdeal.Read
import proofs.«145987_j60773787239146_2_alg».proof.Proof.Dequant
import proofs.«145987_j60773787239146_2_alg».proof.Proof.LibRowOps
import proofs.«145987_j60773787239146_2_alg».proof.Proof.LibLastAxisMax
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read
open Cert.Dequant (lane blockOf laneOf)

/-- The weight array. -/
abbrev WTy : Type := (⟨S11008x4096, .f32⟩ : BufTy).Contents (Elt Ideal)

/-- Row `o` of the weights. -/
abbrev rowOf (W : WTy) (o : Fin 11008) : Fin 4096 → EReal := fun k => W (ix2 o k)

/-- Entry `(o, b, c)` of the row cut into blocks is position `b * 64 + c` of row `o`. -/
theorem idx_v0 (o : Fin 11008) (b c : Fin 64) : idx_main_v0 (ix3 o b c) = ix2 o (lane b c) :=
  funext fun a => Fin.ext (by
    have ho := o.isLt; have hb := b.isLt; have hc := c.isLt
    match a with
    | ⟨0, _⟩ => show ((o.val * 64 + b.val) * 64 + c.val) / 4096 = o.val; omega
    | ⟨1, _⟩ => show ((o.val * 64 + b.val) * 64 + c.val) % 4096 = b.val * 64 + c.val; omega)

/-- The cut row itself. -/
theorem v0_at (W : WTy) (o : Fin 11008) (b c : Fin 64) :
    val_main_v0 (F := Ideal) W (ix3 o b c) = W (ix2 o (lane b c)) := by
  rw [val_main_v0_apply, idx_v0]

/-- The magnitude of a weight: the larger of it and its negation. -/
theorem v1_at (W : WTy) (o : Fin 11008) (b c : Fin 64) :
    val_main_v1 (F := Ideal) W (ix3 o b c) = max (W (ix2 o (lane b c))) (-(W (ix2 o (lane b c)))) := by
  rw [val_main_v1_apply, v0_at]
  rfl

/-- The largest magnitude of block `b` of row `o`. -/
theorem v2_at (W : WTy) (o : Fin 11008) (b : Fin 64) :
    val_main_v2 (F := Ideal) W (ix2 o b) = Cert.Dequant.absMax (rowOf W o) b := by
  unfold val_main_v2
  refine (Cert.LastAxisMax.hostLastMax_apply (φ := .f32) _ _ _ (by decide) _ o b).trans ?_
  unfold Cert.Dequant.absMax
  rw [val_main_cst_apply]
  exact congrArg (fun f => (Finset.univ : Finset (Fin 64)).fold max (Ideal.ofBits .f32 0xFF800000#32) f)
    (funext fun c => v1_at W o b c)

/-- The block maxima kept as a column: entry `(o, b, 0)` reads block `b` of row `o`. -/
theorem idx_v3 (o : Fin 11008) (b : Fin 64) (z : Fin 1) : idx_main_v3 (ix3 o b z) = ix2 o b :=
  funext fun a => Fin.ext (by match a with | ⟨0, _⟩ => rfl | ⟨1, _⟩ => rfl)

/-- The first-level scale of block `b` of row `o`: the floor is the first operand of the reference's maximum and
    the second of the specification's. -/
theorem v6_at (W : WTy) (o : Fin 11008) (b : Fin 64) :
    val_main_v6 (F := Ideal) W (ix3 o b (0 : Fin 1)) = Cert.Dequant.s1 (rowOf W o) b := by
  rw [val_main_v6_apply, val_main_call0_v1_apply, val_main_call0_v0_apply, val_main_cst_1_apply,
    val_main_v5_apply, val_main_v3_apply, idx_v3, v2_at, val_main_v4_apply, val_main_cst_0_apply]
  unfold Cert.Dequant.s1
  exact max_comm _ _

/-- The largest first-level scale of row `o`. -/
theorem v7_at (W : WTy) (o : Fin 11008) :
    val_main_v7 (F := Ideal) W (ix2 o (0 : Fin 1)) = Cert.Dequant.s1Max (rowOf W o) := by
  unfold val_main_v7
  refine (Cert.RowOps.hostMidMax_apply (φ := .f32) _ _ _ (by decide) _ o (0 : Fin 1)).trans ?_
  unfold Cert.Dequant.s1Max
  rw [val_main_cst_2_apply]
  exact congrArg (fun f => (Finset.univ : Finset (Fin 64)).fold max (Ideal.ofBits .f32 0xFF800000#32) f)
    (funext fun b => v6_at W o b)

/-- The row maximum kept with two unit axes: entry `(o, 0, 0)` reads row `o`. -/
theorem idx_v8 (o : Fin 11008) (y z : Fin 1) : idx_main_v8 (ix3 o y z) = ix2 o (0 : Fin 1) :=
  funext fun a => Fin.ext (by match a with | ⟨0, _⟩ => rfl | ⟨1, _⟩ => rfl)

/-- The second-level scale of row `o`. -/
theorem v11_at (W : WTy) (o : Fin 11008) :
    val_main_v11 (F := Ideal) W (ix3 o (0 : Fin 1) (0 : Fin 1)) = Cert.Dequant.s2 (rowOf W o) := by
  rw [val_main_v11_apply, val_main_call1_v1_apply, val_main_call1_v0_apply, val_main_cst_4_apply,
    val_main_v10_apply, val_main_v8_apply, idx_v8, v7_at, val_main_v9_apply, val_main_cst_3_apply]
  unfold Cert.Dequant.s2
  exact max_comm _ _

/-- The row's scale spread over the blocks: entry `(o, b, 0)` reads `(o, 0, 0)`. -/
theorem idx_v12 (o : Fin 11008) (b : Fin 64) (z : Fin 1) :
    idx_main_v12 (ix3 o b z) = ix3 o (0 : Fin 1) (0 : Fin 1) :=
  funext fun a => Fin.ext (by match a with | ⟨0, _⟩ => rfl | ⟨1, _⟩ => rfl | ⟨2, _⟩ => rfl)

theorem idx_v16 (o : Fin 11008) (b : Fin 64) (z : Fin 1) :
    idx_main_v16 (ix3 o b z) = ix3 o (0 : Fin 1) (0 : Fin 1) :=
  funext fun a => Fin.ext (by match a with | ⟨0, _⟩ => rfl | ⟨1, _⟩ => rfl | ⟨2, _⟩ => rfl)

/-- Block `b`'s first-level scale as a count between 0 and 15 of the second-level scale. -/
theorem v15_at (W : WTy) (o : Fin 11008) (b : Fin 64) :
    val_main_v15 (F := Ideal) W (ix3 o b (0 : Fin 1)) = Cert.Dequant.cnt (rowOf W o) b := by
  rw [val_main_v15_apply, val_main_call3_v4_apply, val_main_call3_v3_apply, val_main_cst_6_apply,
    val_main_call3_v2_apply, val_main_call3_v1_apply, val_main_call3_v0_apply, val_main_cst_5_apply,
    val_main_v14_apply, val_main_v13_apply, v6_at, val_main_v12_apply, idx_v12, v11_at]
  rfl

/-- The scale stored for block `b`: its count times the second-level scale. -/
theorem v17_at (W : WTy) (o : Fin 11008) (b : Fin 64) :
    val_main_v17 (F := Ideal) W (ix3 o b (0 : Fin 1)) = Cert.Dequant.scale (rowOf W o) b := by
  rw [val_main_v17_apply, v15_at, val_main_v16_apply, idx_v16, v11_at]
  rfl

/-- A block's scale spread over its lanes: entry `(o, b, c)` reads `(o, b, 0)`. -/
theorem idx_v18 (o : Fin 11008) (b c : Fin 64) : idx_main_v18 (ix3 o b c) = ix3 o b (0 : Fin 1) :=
  funext fun a => Fin.ext (by match a with | ⟨0, _⟩ => rfl | ⟨1, _⟩ => rfl | ⟨2, _⟩ => rfl)

theorem idx_v22 (o : Fin 11008) (b c : Fin 64) : idx_main_v22 (ix3 o b c) = ix3 o b (0 : Fin 1) :=
  funext fun a => Fin.ext (by match a with | ⟨0, _⟩ => rfl | ⟨1, _⟩ => rfl | ⟨2, _⟩ => rfl)

/-- Lane `c` of block `b` of row `o`, stored as a count between -8 and 7 of the block's scale and read back. -/
theorem v23_at (W : WTy) (o : Fin 11008) (b c : Fin 64) :
    val_main_v23 (F := Ideal) W (ix3 o b c) = Cert.Dequant.deq (rowOf W o) (lane b c) := by
  rw [val_main_v23_apply, val_main_v21_apply, val_main_call5_v4_apply, val_main_call5_v3_apply, val_main_cst_8_apply,
    val_main_call5_v2_apply, val_main_call5_v1_apply, val_main_call5_v0_apply, val_main_cst_7_apply,
    val_main_v20_apply, val_main_v19_apply, v0_at, val_main_v18_apply, idx_v18, v17_at,
    val_main_v22_apply, idx_v22, v17_at]
  unfold Cert.Dequant.deq Cert.Dequant.store4
  rw [Cert.Dequant.blockOf_lane]
  rfl

/-- Position `k` of row `o` is lane `k % 64` of block `k / 64`. -/
theorem idx_v24 (o : Fin 11008) (k : Fin 4096) : idx_main_v24 (ix2 o k) = ix3 o (blockOf k) (laneOf k) :=
  funext fun a => Fin.ext (by
    have ho := o.isLt; have hk := k.isLt
    match a with
    | ⟨0, _⟩ => show (o.val * 4096 + k.val) / 4096 = o.val; omega
    | ⟨1, _⟩ => show (o.val * 4096 + k.val) / 64 % 64 = k.val / 64; omega
    | ⟨2, _⟩ => show (o.val * 4096 + k.val) % 64 = k.val % 64; omega)

/-- The read-back weight at position `k` of row `o`. -/
theorem v24_at (W : WTy) (o : Fin 11008) (k : Fin 4096) :
    val_main_v24 (F := Ideal) W (ix2 o k) = Cert.Dequant.deq (rowOf W o) k := by
  rw [val_main_v24_apply, idx_v24, v23_at, Cert.Dequant.lane_blockOf_laneOf]

/-- The contraction's left operand at `(0, s, o)` and position `k`: the activation `(0, s, k)`. -/
theorem lidx_v25 (s : Fin 128) (o : Fin 11008) (k : Fin 4096) :
    lidx_main_v25 (ix3 (0 : Fin 1) s o) k = ix3 (0 : Fin 1) s k :=
  funext fun a => Fin.ext (by match a with | ⟨0, _⟩ => rfl | ⟨1, _⟩ => rfl | ⟨2, _⟩ => rfl)

/-- The contraction's right operand at `(0, s, o)` and position `k`: the weight `(o, k)`. -/
theorem ridx_v25 (s : Fin 128) (o : Fin 11008) (k : Fin 4096) :
    ridx_main_v25 (ix3 (0 : Fin 1) s o) k = ix2 o k :=
  funext fun a => Fin.ext (by match a with | ⟨0, _⟩ => rfl | ⟨1, _⟩ => rfl)

/-- The bias spread over the batch and sequence axes: entry `(0, s, o)` reads the bias at `o`. -/
theorem idx_v26_v27 (s : Fin 128) (o : Fin 11008) :
    idx_main_v26 (idx_main_v27 (ix3 (0 : Fin 1) s o)) = ix1 o :=
  funext fun a => Fin.ext (by match a with | ⟨0, _⟩ => rfl)

/-- The reference's output entry `(0, s, o)`: the sum over the row's positions of the activation times the read-back
    weight, plus the bias of output channel `o`. -/
theorem ref_eq_spec (X : (⟨S1x128x4096, .f32⟩ : BufTy).Contents (Elt Ideal))
    (W : (⟨S11008x4096, .f32⟩ : BufTy).Contents (Elt Ideal)) (B : (⟨S11008, .f32⟩ : BufTy).Contents (Elt Ideal))
    (s : Fin 128) (o : Fin 11008) :
    val_main_v28 (F := Ideal) X W B (ix3 (0 : Fin 1) s o)
      = Cert.Dequant.outAt (fun k => X (ix3 (0 : Fin 1) s k)) (fun k => W (ix2 o k)) (B (ix1 o)) := by
  rw [val_main_v28_apply, val_main_v25_apply, val_main_v27_apply, val_main_v26_apply, idx_v26_v27]
  unfold Cert.Dequant.outAt
  refine congrArg (fun t => t + B (ix1 o)) (Finset.sum_congr rfl fun k _ => ?_)
  rw [lidx_v25, ridx_v25, v24_at]

end Cert.ReferenceIdeal.RefValue

end
-- ==== Proof.lean ====
/-
  A linear layer whose weights are quantized on the fly, against its plain reference, on the extended reals.

  Both programs take activations `x : [1, 128, 4096]`, weights `w : [11008, 4096]` and a bias `[11008]`. Each weight row
  is cut into 64 blocks of 64 lanes and quantized with two levels of scales (a per-block scale, itself stored as a
  4-bit count of a per-row scale), read back, and the output is `x · w_readbackᵀ + bias`.

  The reference divides each weight by its block's scale. The kernel works on tiles of 256 rows (one per grid point,
  43 of them), prepares per block the reciprocal of the scale — or zero where the scale's count is zero — and
  multiplies. On the extended reals the two read back the same weight, with nothing asked of the inputs
  (Proof/Dequant.lean: where the scale is zero both are a product with zero; elsewhere the count is positive and
  `w * (1 * s⁻¹) = w / s`). The changes of float format on the way into the matrix product are the identity there, a
  product into a zero accumulator is the plain contraction, and the 43 column blocks of the output tile it.

  The modules: Proof/Dequant.lean states the row-wise computation and the law; Proof/RefValue.lean reads the
  reference's result entry by entry as that computation; Proof/KernelTile.lean and Proof/KernelOut.lean do the same for
  what one grid point computes; Proof/KernelValue.lean goes from the points' blocks to the whole output array. Here the
  two runs are set side by side.
-/
import proofs.«145987_j60773787239146_2_alg».proof.Defs
import proofs.«145987_j60773787239146_2_alg».proof.Proof.Gen.Kernel
import proofs.«145987_j60773787239146_2_alg».proof.Proof.Gen.Kernel.Skeleton
import proofs.«145987_j60773787239146_2_alg».proof.Proof.Gen.Kernel.Launch
import proofs.«145987_j60773787239146_2_alg».proof.Proof.Gen.Kernel.Points
import proofs.«145987_j60773787239146_2_alg».proof.Proof.Gen.Kernel.Frame
import proofs.«145987_j60773787239146_2_alg».proof.Proof.Gen.KernelIdeal
import proofs.«145987_j60773787239146_2_alg».proof.Proof.Gen.KernelIdeal.Skeleton
import proofs.«145987_j60773787239146_2_alg».proof.Proof.Gen.KernelIdeal.Launch
import proofs.«145987_j60773787239146_2_alg».proof.Proof.Gen.KernelIdeal.Points
import proofs.«145987_j60773787239146_2_alg».proof.Proof.Gen.KernelIdeal.Frame
import proofs.«145987_j60773787239146_2_alg».proof.Proof.Gen.ReferenceIdeal
import proofs.«145987_j60773787239146_2_alg».proof.Proof.Gen.Pre_finite_inputs
import proofs.«145987_j60773787239146_2_alg».proof.Proof.Gen.KernelIdeal.Value
import proofs.«145987_j60773787239146_2_alg».proof.Proof.Gen.ReferenceIdeal.Run
import proofs.«145987_j60773787239146_2_alg».proof.Proof.Gen.ReferenceIdeal.Read
import proofs.«145987_j60773787239146_2_alg».proof.Proof.KernelValue
import proofs.«145987_j60773787239146_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- The reference's result array is the specification of its three arguments: every index is `(0, s, o)`. -/
theorem ref_is_spec (X : (⟨Cert.ReferenceIdeal.S1x128x4096, .f32⟩ : BufTy).Contents (Elt Ideal))
    (W : (⟨Cert.ReferenceIdeal.S11008x4096, .f32⟩ : BufTy).Contents (Elt Ideal))
    (B : (⟨Cert.ReferenceIdeal.S11008, .f32⟩ : BufTy).Contents (Elt Ideal)) :
    Cert.ReferenceIdeal.Read.val_main_v28 (F := Ideal) X W B = Cert.KernelIdeal.Whole.spec X W B := by
  funext i
  obtain ⟨z, s, o, rfl⟩ : ∃ (z : Fin 1) (s : Fin 128) (o : Fin 11008), i = ix3 z s o := ⟨i 0, i 1, i 2, eq_ix3 i⟩
  have hz : z = 0 := Subsingleton.elim _ _
  subst hz
  exact Cert.ReferenceIdeal.RefValue.ref_eq_spec X W B s o

/-- From memories that agree on the arguments, the kernel's output array and the reference's result end at the same
    function of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, ref_is_spec, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
